-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S2048x4096 : Shape := ⟨2, ![2048, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 32
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S2048x4096, .bf16⟩
  | .hbm, ⟨30, _⟩ => ⟨S8192x1024, .f32⟩
  | .hbm, ⟨31, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  concatenates_S1024x4096_S1024x4096_S2048x4096_d0 : Shape.Concatenates [S1024x4096, S1024x4096] S2048x4096 0
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.FrameBits.lean ====
/-
  The run of the fused LSTM cell's program up to and through its one pipelined region, at any float instance.
  The host lines before the region only build the stacked weight matrix and the summed bias; they write none of the
  nineteen argument arrays. The region walks 32 row blocks of 256 rows. At each block the body reads the three row
  blocks (input, previous hidden state, previous cell state), the whole stacked weight matrix and the bias row, and
  overwrites both output blocks entirely: the new hidden state and the new cell state. So after the body each
  output's staging buffer is a function of the five input blocks alone, every input buffer is as it was, and the
  pipeline's frame theorem gives: the program terminates without fault, each argument array is unchanged, and each
  output array is the union of the blocks written back.
-/
import proofs.«136209_j38491496907449_2_alg».proof.Proof.Gen.Kernel.Launch
import proofs.«136209_j38491496907449_2_alg».proof.Proof.Gen.Kernel.Skeleton
import proofs.«136209_j38491496907449_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch memory after the eleven host lines that stack
    the weights and sum the biases. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is those host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there or kept
    from an earlier point (the weight matrix and the bias row are fetched once: their block index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

abbrev rRow : Rect S256x1024 := Rect.unit (s := S256x1024) ![0, 0] S256x1024.size inb_S256x1024_S256x1024_0_0
abbrev rMat : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The hidden-state block after the body: one whole-block store of the third payload (output gate times tanh of the
    new cell state) of the five input blocks. -/
def outH (x a cp : Vec F S256x1024 .f32) (w : Vec F S2048x4096 .bf16) (b : Vec F S1x4096 .f32) : Vec F S256x1024 .f32 :=
  View.canon [⟨rRow, k0_pay3 (View.ld x rRow) (View.ld a rRow) (View.ld w rMat) (View.ld b rBias) (View.ld cp rRow)⟩]

/-- The cell-state block after the body: one whole-block store of the second payload. -/
def outC (x a cp : Vec F S256x1024 .f32) (w : Vec F S2048x4096 .bf16) (b : Vec F S1x4096 .f32) : Vec F S256x1024 .f32 :=
  View.canon [⟨rRow, k0_pay2 (View.ld x rRow) (View.ld a rRow) (View.ld w rMat) (View.ld b rBias) (View.ld cp rRow)⟩]

/-- A single whole-block store covers the block. -/
theorem coverRow (p0 : Vec F S256x1024 .f32) (y : S256x1024.Idx) :
    ∃ pc ∈ ([⟨rRow, p0⟩] : List (View.Piece (Elt F) S256x1024 .f32)), y ∈ pc.1.set :=
  View.cover_of_tiled [⟨rRow, p0⟩] S256x1024.size (by rfl) y

/-! ## The body's triple -/

set_option maxHeartbeats 1000000 in
/-- The body on whole staging buffers — the five inputs' at known contents, the two outputs' at anything — runs to a
    state with the inputs' as they were and the outputs' at `outH` and `outC` of the inputs. (The body also loads each
    output buffer before it overwrites it; the loaded values are unused.) -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverRow _)
  iexists _; isplitr
  swap; · iexact H6
  ipureintro
  exact View.read_writes_eq_canon _ _ _ (coverRow _)

/-! ## The pipeline's proof data -/

/-- On core `c`: the arrays as the region finds them; after the body at point `t` each input buffer at its block and
    each output buffer at its function of the five input blocks; nothing else is touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outH (iblk m c 0 t) (iblk m c 1 t) (iblk m c 2 t) (iblk m c 3 t) (iblk m c 4 t) := by dsimp only [dats]
theorem after6 (c : Dev nD) (t : Fin cfg0.N) : (dats m 0 c).after 6 t = outC (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates without fault; each array a window stages ends at what the write-backs
    leave in it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two result arrays named and the nineteen arguments unchanged: the three row arrays are staged
    inputs never written back, the sixteen weight and bias arrays are staged by no window. -/
theorem run_all : θ_run defs (onTc (τ := τ) (main (F := F))) ⟨m, fun _ => 0, ρ⟩ (fun r => ∀ c : Dev nD,
      r.2.mem ((c.tc : Thread nD τ).loc main_v11_0) = (dats m 0 c).arrAt 5 cfg0.N
      ∧ r.2.mem ((c.tc : Thread nD τ).loc main_v11_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

/-- The frame: the program runs and leaves its nineteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_all m ρ)

end Cert.Kernel.Fr

end
-- ==== Proof.FrameIdeal.lean ====
/-
  The run of the fused LSTM cell's program up to and through its one pipelined region, at any float instance.
  The host lines before the region only build the stacked weight matrix and the summed bias; they write none of the
  nineteen argument arrays. The region walks 32 row blocks of 256 rows. At each block the body reads the three row
  blocks (input, previous hidden state, previous cell state), the whole stacked weight matrix and the bias row, and
  overwrites both output blocks entirely: the new hidden state and the new cell state. So after the body each
  output's staging buffer is a function of the five input blocks alone, every input buffer is as it was, and the
  pipeline's frame theorem gives: the program terminates without fault, each argument array is unchanged, and each
  output array is the union of the blocks written back.
-/
import proofs.«136209_j38491496907449_2_alg».proof.Proof.Gen.KernelIdeal.Launch
import proofs.«136209_j38491496907449_2_alg».proof.Proof.Gen.KernelIdeal.Skeleton
import proofs.«136209_j38491496907449_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch memory after the eleven host lines that stack
    the weights and sum the biases. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is those host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nary_writes, StableHlo.unary_writes, StableHlo.binary_writes, StableHlo.reshape_writes, Finset.mem_singleton]
    repeat' apply And.intro
    all_goals exact StableHlo.devRef_ne_of_ne (by decide)))

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there or kept
    from an earlier point (the weight matrix and the bias row are fetched once: their block index never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

abbrev rRow : Rect S256x1024 := Rect.unit (s := S256x1024) ![0, 0] S256x1024.size inb_S256x1024_S256x1024_0_0
abbrev rMat : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The hidden-state block after the body: one whole-block store of the third payload (output gate times tanh of the
    new cell state) of the five input blocks. -/
def outH (x a cp : Vec F S256x1024 .f32) (w : Vec F S2048x4096 .bf16) (b : Vec F S1x4096 .f32) : Vec F S256x1024 .f32 :=
  View.canon [⟨rRow, k0_pay3 (View.ld x rRow) (View.ld a rRow) (View.ld w rMat) (View.ld b rBias) (View.ld cp rRow)⟩]

/-- The cell-state block after the body: one whole-block store of the second payload. -/
def outC (x a cp : Vec F S256x1024 .f32) (w : Vec F S2048x4096 .bf16) (b : Vec F S1x4096 .f32) : Vec F S256x1024 .f32 :=
  View.canon [⟨rRow, k0_pay2 (View.ld x rRow) (View.ld a rRow) (View.ld w rMat) (View.ld b rBias) (View.ld cp rRow)⟩]

/-- A single whole-block store covers the block. -/
theorem coverRow (p0 : Vec F S256x1024 .f32) (y : S256x1024.Idx) :
    ∃ pc ∈ ([⟨rRow, p0⟩] : List (View.Piece (Elt F) S256x1024 .f32)), y ∈ pc.1.set :=
  View.cover_of_tiled [⟨rRow, p0⟩] S256x1024.size (by rfl) y

/-! ## The body's triple -/

set_option maxHeartbeats 1000000 in
/-- The body on whole staging buffers — the five inputs' at known contents, the two outputs' at anything — runs to a
    state with the inputs' as they were and the outputs' at `outH` and `outC` of the inputs. (The body also loads each
    output buffer before it overwrites it; the loaded values are unused.) -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outH x0 x1 x2 x3 x4) ∗ owns (c : Thread nD τ) arg7 fullShare (outC x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverRow _)
  iexists _; isplitr
  swap; · iexact H6
  ipureintro
  exact View.read_writes_eq_canon _ _ _ (coverRow _)

/-! ## The pipeline's proof data -/

/-- On core `c`: the arrays as the region finds them; after the body at point `t` each input buffer at its block and
    each output buffer at its function of the five input blocks; nothing else is touched, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outH (iblk m c 0 t) (iblk m c 1 t) (iblk m c 2 t) (iblk m c 3 t) (iblk m c 4 t) := by dsimp only [dats]
theorem after6 (c : Dev nD) (t : Fin cfg0.N) : (dats m 0 c).after 6 t = outC (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates without fault; each array a window stages ends at what the write-backs
    leave in it, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the two result arrays named and the nineteen arguments unchanged: the three row arrays are staged
    inputs never written back, the sixteen weight and bias arrays are staged by no window. -/
theorem run_all : θ_run defs (onTc (τ := τ) (main (F := F))) ⟨m, fun _ => 0, ρ⟩ (fun r => ∀ c : Dev nD,
      r.2.mem ((c.tc : Thread nD τ).loc main_v11_0) = (dats m 0 c).arrAt 5 cfg0.N
      ∧ r.2.mem ((c.tc : Thread nD τ).loc main_v11_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

/-- The frame: the program runs and leaves its nineteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2.2) (run_all m ρ)

end Cert.KernelIdeal.Fr

end
-- ==== Proof.Spec.lean ====
/-
  The LSTM cell as one function of its arrays, index by index, over the extended reals.

  For a batch row `r` and a gate column `j` (4096 columns: the forget, input, output and candidate gates, 1024 each)
  the pre-activation is
      pre r j = (Σ_k x[r,k] · tw[k,j]) + (Σ_k a[r,k] · tu[k,j]) + b[j]
  where `tw`, `tu` are the transposed stacked input and recurrent weight matrices and `b` the summed stacked bias.
  The new cell state is  σ(pre r h) · c[r,h] + σ(pre r (1024+h)) · tanh(pre r (3072+h)),  the new hidden state is
  σ(pre r (2048+h)) · tanh(new cell state), with σ x = 1 / (1 + e^(-x)).

  One program computes the two sums separately, the other as a single sum over 2048 terms of the two rows laid side
  by side against the two matrices stacked; the two agree because a finite sum splits at any point, which in a
  commutative monoid needs no finiteness of the terms.
-/
import Idealize.ShloMosaic.PureOps.Ideal
import Idealize.ShloMosaic.Lib.ValueIdx
import Mathlib.Algebra.BigOperators.Fin

noncomputable section

namespace Cert.LstmCell

open Idealize.ShloMosaic Idealize.ShloMosaic.ValueIdx

/-- Row arrays: 8192 batch rows of 1024 features. -/
abbrev Rows : Shape := ⟨2, ![8192, 1024]⟩
/-- A transposed stacked weight matrix: 1024 input features by 4096 gate columns. -/
abbrev Wt : Shape := ⟨2, ![1024, 4096]⟩
/-- One entry per gate column. -/
abbrev Gates : Shape := ⟨1, ![4096]⟩

/-- Column `h` of the gate whose columns start at `o`. -/
def col (o : Nat) (ho : o + 1024 ≤ 4096) (h : Fin 1024) : Fin 4096 := ⟨o + h.val, by have := h.isLt; omega⟩

/-- The pre-activation of gate column `j` on batch row `r`. -/
def pre (x a : Rows.Idx → EReal) (tw tu : Wt.Idx → EReal) (b : Gates.Idx → EReal) (r : Fin 8192) (j : Fin 4096) : EReal :=
  ((∑ k : Fin 1024, x (ix2 r k) * tw (ix2 k j)) + ∑ k : Fin 1024, a (ix2 r k) * tu (ix2 k j)) + b (ix1 j)

/-- The new cell state at row `r`, feature `h`. -/
def cellAt (x a c : Rows.Idx → EReal) (tw tu : Wt.Idx → EReal) (b : Gates.Idx → EReal) (r : Fin 8192) (h : Fin 1024) : EReal :=
  Ideal.logistic (pre x a tw tu b r (col 0 (by decide) h)) * c (ix2 r h)
    + Ideal.logistic (pre x a tw tu b r (col 1024 (by decide) h)) * Ideal.tanh (pre x a tw tu b r (col 3072 (by decide) h))

/-- The new hidden state at row `r`, feature `h`. -/
def hidAt (x a c : Rows.Idx → EReal) (tw tu : Wt.Idx → EReal) (b : Gates.Idx → EReal) (r : Fin 8192) (h : Fin 1024) : EReal :=
  Ideal.logistic (pre x a tw tu b r (col 2048 (by decide) h)) * Ideal.tanh (cellAt x a c tw tu b r h)

/-- The new cell state as an array. -/
def cellNew (x a c : Rows.Idx → EReal) (tw tu : Wt.Idx → EReal) (b : Gates.Idx → EReal) : Rows.Idx → EReal :=
  fun i => cellAt x a c tw tu b (i 0) (i 1)

/-- The new hidden state as an array. -/
def hidNew (x a c : Rows.Idx → EReal) (tw tu : Wt.Idx → EReal) (b : Gates.Idx → EReal) : Rows.Idx → EReal :=
  fun i => hidAt x a c tw tu b (i 0) (i 1)

/-- A sum over 2048 terms is the sum of its first 1024 and of its last 1024. -/
theorem sum_two_halves (f : Fin 2048 → EReal) :
    ∑ k : Fin 2048, f k
      = (∑ k : Fin 1024, f ⟨k.val, by have := k.isLt; omega⟩) + ∑ k : Fin 1024, f ⟨1024 + k.val, by have := k.isLt; omega⟩ :=
  Fin.sum_univ_add (a := 1024) (b := 1024) f

end Cert.LstmCell

end
-- ==== Proof.KernelPayload.lean ====
/-
  The body's arithmetic on one block of 256 rows, read at an index, over the extended reals.

  The body lays the input block and the hidden-state block side by side (256 × 2048), multiplies by the stacked
  weight matrix (2048 × 4096) into a zero accumulator, adds the bias row, and cuts the 4096 gate columns into the four
  gates. At row `p`, gate column `j` the product is one sum over 2048 terms; its first 1024 terms pair the input row
  with the upper half of the matrix, its last 1024 the hidden-state row with the lower half. Rounding to the narrow
  format is the identity on the extended reals, and the casts to the same shape change nothing.
-/
import proofs.«136209_j38491496907449_2_alg».proof.Proof.Gen.KernelIdeal.Skeleton
import proofs.«136209_j38491496907449_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Cert.LstmCell
open Idealize.ShloMosaic Idealize.ShloMosaic.ValueIdx

/-! ## Layout operations of the body at explicit coordinates -/

/-- Two blocks side by side: a column in the left half reads the left block. -/
theorem sideBySide_left (u v : FVec Ideal S256x1024 .bf16) (p : Fin 256) (k : Fin 1024) :
    concatenate S256x2048 1 [⟨S256x1024, u⟩, ⟨S256x1024, v⟩] Facts₀.concatenates_S256x1024_S256x1024_S256x2048_d1
      (ix2 p (⟨k.val, by have := k.isLt; omega⟩ : Fin 2048)) = u (ix2 p k) :=
  concatenate_pair_apply_left (1 : Fin S256x2048.rank) u v _ _ rfl (ix2 p k)
    (fun b => by match b with | ⟨0, _⟩ => rfl | ⟨1, _⟩ => rfl)

/-- A column in the right half reads the right block. -/
theorem sideBySide_right (u v : FVec Ideal S256x1024 .bf16) (p : Fin 256) (k : Fin 1024) :
    concatenate S256x2048 1 [⟨S256x1024, u⟩, ⟨S256x1024, v⟩] Facts₀.concatenates_S256x1024_S256x1024_S256x2048_d1
      (ix2 p (⟨1024 + k.val, by have := k.isLt; omega⟩ : Fin 2048)) = v (ix2 p k) :=
  concatenate_pair_apply_right (1 : Fin S256x2048.rank) u v _ _ rfl rfl (ix2 p k)
    (fun b hb => by match b with | ⟨0, _⟩ => rfl | ⟨1, _⟩ => exact absurd rfl hb)
    (by show k.val + 1024 = 1024 + k.val; omega)

/-- The bias row repeated down the 256 rows reads the row at the column. -/
theorem biasRows (b : FVec Ideal S1x4096 .f32) (p : Fin 256) (j : Fin 4096) :
    broadcastTo S256x4096 b Facts₀.broadcasts_S1x4096_S256x4096 (ix2 p j) = b (ix2 (0 : Fin 1) j) :=
  broadcastTo_apply b _ (ix2 p j) (ix2 (0 : Fin 1) j) (fun a => by
    match a with
    | ⟨0, _⟩ => show 0 = if (1 : Nat) = 1 then 0 else _; rw [if_pos rfl]
    | ⟨1, _⟩ => show j.val = if (4096 : Nat) = 1 then 0 else _; rw [if_neg (by decide)]; rfl)

/-! The operand indices of the product at output index `i` and contracted position `q`: (row of `i`, `q`) on the left,
    (`q`, column of `i`) on the right. -/
theorem lhs_row (i : S256x4096.Idx) (q : dot_S256x2048_S2048x4096_S256x4096_1_0_0_1_n_n.contr.Idx) : (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem lhs_pos (i : S256x4096.Idx) (q : dot_S256x2048_S2048x4096_S256x4096_1_0_0_1_n_n.contr.Idx) : (dot_S256x2048_S2048x4096_S256x4096_1_0_0_1_n_n.lhsIdx i q 1).val = (q ⟨0, by decide⟩).val :=
  dot_S256x2048_S2048x4096_S256x4096_1_0_0_1_n_n.lhsIdx_val_of_single rfl i q
theorem rhs_pos (i : S256x4096.Idx) (q : dot_S256x2048_S2048x4096_S256x4096_1_0_0_1_n_n.contr.Idx) : (dot_S256x2048_S2048x4096_S256x4096_1_0_0_1_n_n.rhsIdx i q 0).val = (q ⟨0, by decide⟩).val :=
  dot_S256x2048_S2048x4096_S256x4096_1_0_0_1_n_n.rhsIdx_val_of_single rfl i q
theorem rhs_col (i : S256x4096.Idx) (q : dot_S256x2048_S2048x4096_S256x4096_1_0_0_1_n_n.contr.Idx) : (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The matrix product into a zero accumulator is the plain sum over the 2048 contracted positions. -/
theorem product_apply (l : FVec Ideal S256x2048 .bf16) (w : FVec Ideal S2048x4096 .bf16) (p : Fin 256) (j : Fin 4096) :
    matmul dot_S256x2048_S2048x4096_S256x4096_1_0_0_1_n_n none l w (constant S256x4096 .f32 0x00000000#32) (ix2 p j)
      = ∑ k : Fin 2048, l (ix2 p k) * w (ix2 k j) := by
  show FloatOps.matmul dot_S256x2048_S2048x4096_S256x4096_1_0_0_1_n_n none l w (constant S256x4096 .f32 0x00000000#32) (ix2 p j) = _
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p j) ((contrEquiv1 dot_S256x2048_S2048x4096_S256x4096_1_0_0_1_n_n 2048 rfl rfl).symm k) = ix2 p k := funext fun a => Fin.ext (by
    match a with
    | ⟨0, _⟩ => exact lhs_row _ _
    | ⟨1, _⟩ => exact (lhs_pos _ _).trans hk)
  have er : dot_S256x2048_S2048x4096_S256x4096_1_0_0_1_n_n.rhsIdx (ix2 p j) ((contrEquiv1 dot_S256x2048_S2048x4096_S256x4096_1_0_0_1_n_n 2048 rfl rfl).symm k) = ix2 k j := funext fun a => Fin.ext (by
    match a with
    | ⟨0, _⟩ => exact (rhs_pos _ _).trans hk
    | ⟨1, _⟩ => exact rhs_col _ _)
  rw [el, er]

/-! ## The pre-activation of the block -/

/-- Row `p` of the block, gate column `j`: the input row against the upper half of the stacked matrix, plus the
    hidden-state row against the lower half, plus the bias. -/
def preBlk (x0 x1 : Vec Ideal S256x1024 .f32) (w : Vec Ideal S2048x4096 .bf16) (b : Vec Ideal S1x4096 .f32) (p : Fin 256) (j : Fin 4096) : EReal :=
  ((∑ k : Fin 1024, x0 (ix2 p k) * w (ix2 (⟨k.val, by have := k.isLt; omega⟩ : Fin 2048) j))
    + ∑ k : Fin 1024, x1 (ix2 p k) * w (ix2 (⟨1024 + k.val, by have := k.isLt; omega⟩ : Fin 2048) j)) + b (ix2 (0 : Fin 1) j)

theorem pay1_apply (x0 x1 : Vec Ideal S256x1024 .f32) (w : Vec Ideal S2048x4096 .bf16) (b : Vec Ideal S1x4096 .f32) (p : Fin 256) (j : Fin 4096) :
    k0_pay1 (F := Ideal) x0 x1 w b (ix2 p j) = preBlk x0 x1 w b p j := by
  unfold k0_pay1 preBlk
  rw [shapeCast_self, shapeCast_self]
  refine (addf_apply _ _ _).trans ?_
  rw [product_apply, sum_two_halves, biasRows]
  refine congrArg₂ (· + ·) (congrArg₂ (· + ·) (Finset.sum_congr rfl fun k _ => ?_) (Finset.sum_congr rfl fun k _ => ?_)) rfl
  · rw [sideBySide_left]; rfl
  · rw [sideBySide_right]; rfl

/-! ## The gates -/

/-- The slice of 1024 gate columns starting at column `o`. -/
theorem gateSlice (o : Nat) (ho : o + 1024 ≤ 4096) (v : FVec Ideal S256x4096 .f32) (hs : S256x4096.Slices ![0, o] S256x1024)
    (p : Fin 256) (h : Fin 1024) :
    extractStridedSlice S256x1024 ![0, o] v hs (ix2 p h) = v (ix2 p (col o ho h)) :=
  extractStridedSlice_apply ![0, o] v hs (ix2 p h) (ix2 p (col o ho h)) (fun a => by
    match a with
    | ⟨0, _⟩ => show p.val = 0 + p.val; omega
    | ⟨1, _⟩ => rfl)

/-- The new cell state of the block: forget gate times the old cell state plus input gate times candidate. -/
theorem pay2_apply (x0 x1 : Vec Ideal S256x1024 .f32) (w : Vec Ideal S2048x4096 .bf16) (b : Vec Ideal S1x4096 .f32) (cp : Vec Ideal S256x1024 .f32) (p : Fin 256) (h : Fin 1024) :
    k0_pay2 (F := Ideal) x0 x1 w b cp (ix2 p h)
      = Ideal.logistic (preBlk x0 x1 w b p (col 0 (by decide) h)) * cp (ix2 p h)
        + Ideal.logistic (preBlk x0 x1 w b p (col 1024 (by decide) h)) * Ideal.tanh (preBlk x0 x1 w b p (col 3072 (by decide) h)) := by
  unfold k0_pay2
  simp only [Idealize.ShloMosaic.addf, Idealize.ShloMosaic.mulf, Idealize.ShloMosaic.logistic, Idealize.ShloMosaic.tanh,
    Ideal.addf_def, Ideal.mulf_def, Ideal.logistic_def, Ideal.tanh_def,
    gateSlice 0 (by decide), gateSlice 1024 (by decide), gateSlice 3072 (by decide), pay1_apply]

/-- The new hidden state of the block: output gate times tanh of the new cell state. -/
theorem pay3_apply (x0 x1 : Vec Ideal S256x1024 .f32) (w : Vec Ideal S2048x4096 .bf16) (b : Vec Ideal S1x4096 .f32) (cp : Vec Ideal S256x1024 .f32) (p : Fin 256) (h : Fin 1024) :
    k0_pay3 (F := Ideal) x0 x1 w b cp (ix2 p h)
      = Ideal.logistic (preBlk x0 x1 w b p (col 2048 (by decide) h)) * Ideal.tanh (k0_pay2 (F := Ideal) x0 x1 w b cp (ix2 p h)) := by
  unfold k0_pay3
  simp only [Idealize.ShloMosaic.mulf, Idealize.ShloMosaic.logistic, Idealize.ShloMosaic.tanh,
    Ideal.mulf_def, Ideal.logistic_def, Ideal.tanh_def, gateSlice 2048 (by decide), pay1_apply]

/-! ## From the block to the arrays

When the loaded blocks are row `p` ↦ row `r` of the row arrays, the upper and lower halves of the stacked matrix are
the two transposed weight matrices, and the bias row is the summed bias, the block's payloads at `(p, h)` are the cell's
formulas at `(r, h)`. -/

theorem preBlk_eq (X A : Rows.Idx → EReal) (TW TU : Wt.Idx → EReal) (B : Gates.Idx → EReal) (x0 x1 : Vec Ideal S256x1024 .f32) (w : Vec Ideal S2048x4096 .bf16) (b : Vec Ideal S1x4096 .f32)
    (r : Fin 8192) (p : Fin 256)
    (hx0 : ∀ k : Fin 1024, x0 (ix2 p k) = X (ix2 r k)) (hx1 : ∀ k : Fin 1024, x1 (ix2 p k) = A (ix2 r k))
    (hwU : ∀ (k : Fin 1024) (j : Fin 4096), w (ix2 (⟨k.val, by have := k.isLt; omega⟩ : Fin 2048) j) = TW (ix2 k j))
    (hwL : ∀ (k : Fin 1024) (j : Fin 4096), w (ix2 (⟨1024 + k.val, by have := k.isLt; omega⟩ : Fin 2048) j) = TU (ix2 k j))
    (hb : ∀ j : Fin 4096, b (ix2 (0 : Fin 1) j) = B (ix1 j)) (j : Fin 4096) :
    preBlk x0 x1 w b p j = pre X A TW TU B r j := by
  unfold preBlk pre
  simp only [hx0, hx1, hwU, hwL, hb]

theorem cell_block (X A C : Rows.Idx → EReal) (TW TU : Wt.Idx → EReal) (B : Gates.Idx → EReal) (x0 x1 : Vec Ideal S256x1024 .f32) (w : Vec Ideal S2048x4096 .bf16) (b : Vec Ideal S1x4096 .f32) (cp : Vec Ideal S256x1024 .f32)
    (r : Fin 8192) (p : Fin 256)
    (hx0 : ∀ k : Fin 1024, x0 (ix2 p k) = X (ix2 r k)) (hx1 : ∀ k : Fin 1024, x1 (ix2 p k) = A (ix2 r k))
    (hwU : ∀ (k : Fin 1024) (j : Fin 4096), w (ix2 (⟨k.val, by have := k.isLt; omega⟩ : Fin 2048) j) = TW (ix2 k j))
    (hwL : ∀ (k : Fin 1024) (j : Fin 4096), w (ix2 (⟨1024 + k.val, by have := k.isLt; omega⟩ : Fin 2048) j) = TU (ix2 k j))
    (hb : ∀ j : Fin 4096, b (ix2 (0 : Fin 1) j) = B (ix1 j)) (h : Fin 1024) (hcp : cp (ix2 p h) = C (ix2 r h)) :
    k0_pay2 (F := Ideal) x0 x1 w b cp (ix2 p h) = cellAt X A C TW TU B r h := by
  rw [pay2_apply, hcp]
  simp only [preBlk_eq X A TW TU B x0 x1 w b r p hx0 hx1 hwU hwL hb]
  rfl

theorem hid_block (X A C : Rows.Idx → EReal) (TW TU : Wt.Idx → EReal) (B : Gates.Idx → EReal) (x0 x1 : Vec Ideal S256x1024 .f32) (w : Vec Ideal S2048x4096 .bf16) (b : Vec Ideal S1x4096 .f32) (cp : Vec Ideal S256x1024 .f32)
    (r : Fin 8192) (p : Fin 256)
    (hx0 : ∀ k : Fin 1024, x0 (ix2 p k) = X (ix2 r k)) (hx1 : ∀ k : Fin 1024, x1 (ix2 p k) = A (ix2 r k))
    (hwU : ∀ (k : Fin 1024) (j : Fin 4096), w (ix2 (⟨k.val, by have := k.isLt; omega⟩ : Fin 2048) j) = TW (ix2 k j))
    (hwL : ∀ (k : Fin 1024) (j : Fin 4096), w (ix2 (⟨1024 + k.val, by have := k.isLt; omega⟩ : Fin 2048) j) = TU (ix2 k j))
    (hb : ∀ j : Fin 4096, b (ix2 (0 : Fin 1) j) = B (ix1 j)) (h : Fin 1024) (hcp : cp (ix2 p h) = C (ix2 r h)) :
    k0_pay3 (F := Ideal) x0 x1 w b cp (ix2 p h) = hidAt X A C TW TU B r h := by
  rw [pay3_apply, cell_block X A C TW TU B x0 x1 w b cp r p hx0 hx1 hwU hwL hb h hcp]
  simp only [preBlk_eq X A TW TU B x0 x1 w b r p hx0 hx1 hwU hwL hb]
  rfl

end Cert.KernelIdeal.Pay

end
-- ==== Proof.KernelValue.lean ====
/-
  The fused program's two result arrays are the cell's two arrays (`Cert.LstmCell`).

  When the region is entered the stacked-matrix buffer holds the transposed stacked input weights on top of the
  transposed stacked recurrent weights, and the bias buffer holds the summed stacked bias as one row. Grid point `t`
  reads rows 256·t … 256·t + 255 of the three row arrays and writes the same rows of the two results; its payloads at
  row `p` are the cell's formulas at row 256·t + p. The 32 blocks tile the 8192 rows, so each result array is the
  cell's array everywhere.
-/
import proofs.«136209_j38491496907449_2_alg».proof.Proof.FrameIdeal
import proofs.«136209_j38491496907449_2_alg».proof.Proof.KernelPayload
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Fr Cert.KernelIdeal.Pay Cert.LstmCell
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host lines leave in the two prepared buffers -/

/-- The four input weight matrices stacked along the gate axis, transposed: features by gate columns. -/
def tw (c : Dev nD) : FVec Ideal S1024x4096 .f32 :=
  transpose S1024x4096 [1, 0] (concatenate S4096x1024 0 [⟨S1024x1024, (m ((c.tc : Thread nD τ).loc main_arg3))⟩, ⟨S1024x1024, (m ((c.tc : Thread nD τ).loc main_arg7))⟩, ⟨S1024x1024, (m ((c.tc : Thread nD τ).loc main_arg11))⟩, ⟨S1024x1024, (m ((c.tc : Thread nD τ).loc main_arg15))⟩] concatenates_S1024x1024_S1024x1024_S1024x1024_S1024x1024_S4096x1024_d0) transposes_S4096x1024_S1024x4096_1_0

/-- The four recurrent weight matrices, likewise. -/
def tu (c : Dev nD) : FVec Ideal S1024x4096 .f32 :=
  transpose S1024x4096 [1, 0] (concatenate S4096x1024 0 [⟨S1024x1024, (m ((c.tc : Thread nD τ).loc main_arg5))⟩, ⟨S1024x1024, (m ((c.tc : Thread nD τ).loc main_arg9))⟩, ⟨S1024x1024, (m ((c.tc : Thread nD τ).loc main_arg13))⟩, ⟨S1024x1024, (m ((c.tc : Thread nD τ).loc main_arg17))⟩] concatenates_S1024x1024_S1024x1024_S1024x1024_S1024x1024_S4096x1024_d0) transposes_S4096x1024_S1024x4096_1_0

/-- The stacked input-side bias plus the stacked recurrent-side bias. -/
def bsum (c : Dev nD) : FVec Ideal S4096 .f32 :=
  addf (concatenate S4096 0 [⟨S1024, (m ((c.tc : Thread nD τ).loc main_arg4))⟩, ⟨S1024, (m ((c.tc : Thread nD τ).loc main_arg8))⟩, ⟨S1024, (m ((c.tc : Thread nD τ).loc main_arg12))⟩, ⟨S1024, (m ((c.tc : Thread nD τ).loc main_arg16))⟩] concatenates_S1024_S1024_S1024_S1024_S4096_d0)
    (concatenate S4096 0 [⟨S1024, (m ((c.tc : Thread nD τ).loc main_arg6))⟩, ⟨S1024, (m ((c.tc : Thread nD τ).loc main_arg10))⟩, ⟨S1024, (m ((c.tc : Thread nD τ).loc main_arg14))⟩, ⟨S1024, (m ((c.tc : Thread nD τ).loc main_arg18))⟩] concatenates_S1024_S1024_S1024_S1024_S4096_d0)

/-- The stacked-matrix buffer at region entry. -/
theorem V_stacked (c : Dev nD) : (V m c main_v10 : FVec Ideal S2048x4096 .bf16)
    = concatenate S2048x4096 0 [⟨S1024x4096, truncf .bf16 (tw m c) bitsLt_bf16_f32⟩, ⟨S1024x4096, truncf .bf16 (tu m c) bitsLt_bf16_f32⟩] concatenates_S1024x4096_S1024x4096_S2048x4096_d0 := by
  dsimp only [V]
  simp only [hostOps0, List.flatten_cons, List.flatten_nil, List.append_nil]
  after_results_simp
  rfl

/-- The bias buffer at region entry: the summed bias as one row. -/
theorem V_biasRow (c : Dev nD) : (V m c main_v5 : FVec Ideal S1x4096 .f32)
    = shapeCast S1x4096 (bsum m c) shapeCasts_S4096_S1x4096 := by
  dsimp only [V]
  simp only [hostOps0, List.flatten_cons, List.flatten_nil, List.append_nil]
  after_results_simp
  rfl

/-! ## The index maps, decided over the 32 grid points -/

/-- The three row windows and the two result windows sit at block row `t`, block column 0; the stacked matrix and the
    bias row are their arrays whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem hz : (![0, 0] : Fin 2 → Nat) = fun _ => 0 := funext fun a => by fin_cases a <;> rfl

/-- The array row that row `p` of block `t` is. -/
def rowOf (t : Fin cfg0.N) (p : Fin 256) : Fin 8192 :=
  ⟨256 * t.val + p.val, by have := t.isLt; have hN : cfg0.N = 32 := N_0; have := p.isLt; omega⟩

/-! ## The blocks read at explicit coordinates -/

theorem blkX (c : Dev nD) (t : Fin cfg0.N) (p : Fin 256) (k : Fin 1024) :
    (iblk m c 0 t : Vec Ideal S256x1024 .f32) (ix2 p k) = (m ((c.tc : Thread nD τ).loc main_arg0)) (ix2 (rowOf t p) k) := by
  obtain ⟨e0, e1, e2, e3, e4, e5, -⟩ := idx_facts t
  refine Eq.trans ?_ (congrFun (V_main_arg0 m c) _)
  show V m c main_arg0 (((cfg0.win 0).blk t).view.emb (ix2 p k)) = V m c main_arg0 _
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega
theorem blkA (c : Dev nD) (t : Fin cfg0.N) (p : Fin 256) (k : Fin 1024) :
    (iblk m c 1 t : Vec Ideal S256x1024 .f32) (ix2 p k) = (m ((c.tc : Thread nD τ).loc main_arg1)) (ix2 (rowOf t p) k) := by
  obtain ⟨e0, e1, e2, e3, e4, e5, -⟩ := idx_facts t
  refine Eq.trans ?_ (congrFun (V_main_arg1 m c) _)
  show V m c main_arg1 (((cfg0.win 1).blk t).view.emb (ix2 p k)) = V m c main_arg1 _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega
theorem blkC (c : Dev nD) (t : Fin cfg0.N) (p : Fin 256) (k : Fin 1024) :
    (iblk m c 2 t : Vec Ideal S256x1024 .f32) (ix2 p k) = (m ((c.tc : Thread nD τ).loc main_arg2)) (ix2 (rowOf t p) k) := by
  obtain ⟨e0, e1, e2, e3, e4, e5, -⟩ := idx_facts t
  refine Eq.trans ?_ (congrFun (V_main_arg2 m c) _)
  show V m c main_arg2 (((cfg0.win 2).blk t).view.emb (ix2 p k)) = V m c main_arg2 _
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

theorem blkW (c : Dev nD) (t : Fin cfg0.N) (k : Fin 2048) (j : Fin 4096) :
    (iblk m c 3 t : Vec Ideal S2048x4096 .bf16) (ix2 k j) = (V m c main_v10 : FVec Ideal S2048x4096 .bf16) (ix2 k j) := by
  obtain ⟨-, -, -, -, -, -, e6, e7, -⟩ := idx_facts t
  show V m c main_v10 (((cfg0.win 3).blk t).view.emb (ix2 k j)) = V m c main_v10 _
  refine congrArg _ (funext fun a => Fin.ext ?_)
  match a with
  | ⟨0, _⟩ => show win0_3.index t (0 : Fin 2) * 2048 + 1 * k.val = k.val; omega
  | ⟨1, _⟩ => show win0_3.index t (1 : Fin 2) * 4096 + 1 * j.val = j.val; omega

theorem blkB (c : Dev nD) (t : Fin cfg0.N) (j : Fin 4096) :
    (iblk m c 4 t : Vec Ideal S1x4096 .f32) (ix2 (0 : Fin 1) j) = (V m c main_v5 : FVec Ideal S1x4096 .f32) (ix2 (0 : Fin 1) j) := by
  obtain ⟨-, -, -, -, -, -, -, -, e8, e9, -⟩ := idx_facts t
  show V m c main_v5 (((cfg0.win 4).blk t).view.emb (ix2 (0 : Fin 1) j)) = V m c main_v5 _
  refine congrArg _ (funext fun a => Fin.ext ?_)
  match a with
  | ⟨0, _⟩ => show win0_4.index t (0 : Fin 2) * 1 + 1 * 0 = 0; omega
  | ⟨1, _⟩ => show win0_4.index t (1 : Fin 2) * 4096 + 1 * j.val = j.val; omega

/-! ## The prepared buffers read at explicit coordinates -/

theorem stackedUpper (c : Dev nD) (k : Fin 1024) (j : Fin 4096) :
    (V m c main_v10 : FVec Ideal S2048x4096 .bf16) (ix2 (⟨k.val, by have := k.isLt; omega⟩ : Fin 2048) j) = tw m c (ix2 k j) := by
  rw [V_stacked]
  exact concatenate_pair_apply_left (t := S2048x4096) (s₁ := S1024x4096) (s₂ := S1024x4096) (0 : Fin S2048x4096.rank)
    (truncf .bf16 (tw m c) bitsLt_bf16_f32) (truncf .bf16 (tu m c) bitsLt_bf16_f32) concatenates_S1024x4096_S1024x4096_S2048x4096_d0
    (ix2 (⟨k.val, by have := k.isLt; omega⟩ : Fin 2048) j) rfl (ix2 k j)
    (fun b => by match b with | ⟨0, _⟩ => rfl | ⟨1, _⟩ => rfl)

theorem stackedLower (c : Dev nD) (k : Fin 1024) (j : Fin 4096) :
    (V m c main_v10 : FVec Ideal S2048x4096 .bf16) (ix2 (⟨1024 + k.val, by have := k.isLt; omega⟩ : Fin 2048) j) = tu m c (ix2 k j) := by
  rw [V_stacked]
  exact concatenate_pair_apply_right (t := S2048x4096) (s₁ := S1024x4096) (s₂ := S1024x4096) (0 : Fin S2048x4096.rank)
    (truncf .bf16 (tw m c) bitsLt_bf16_f32) (truncf .bf16 (tu m c) bitsLt_bf16_f32) concatenates_S1024x4096_S1024x4096_S2048x4096_d0
    (ix2 (⟨1024 + k.val, by have := k.isLt; omega⟩ : Fin 2048) j) rfl rfl (ix2 k j)
    (fun b hb => by match b with | ⟨0, _⟩ => exact absurd rfl hb | ⟨1, _⟩ => rfl)
    (by show k.val + 1024 = 1024 + k.val; omega)

theorem biasAt (c : Dev nD) (j : Fin 4096) :
    (V m c main_v5 : FVec Ideal S1x4096 .f32) (ix2 (0 : Fin 1) j) = bsum m c (ix1 j) := by
  rw [V_biasRow]
  exact shapeCast_apply (bsum m c) _ (ix2 (0 : Fin 1) j) (ix1 j)
    (by rw [Shape.rowMajor_val_two, Shape.rowMajor_val_one]; show j.val = 0 * 4096 + j.val; omega)

/-! ## What each grid point writes back -/

/-- The cell's new hidden state, as an array of the arguments. -/
def hidArr (c : Dev nD) : FVec Ideal S8192x1024 .f32 :=
  hidNew (m ((c.tc : Thread nD τ).loc main_arg0)) (m ((c.tc : Thread nD τ).loc main_arg1)) (m ((c.tc : Thread nD τ).loc main_arg2)) (tw m c) (tu m c) (bsum m c)

/-- The cell's new cell state, as an array of the arguments. -/
def cellArr (c : Dev nD) : FVec Ideal S8192x1024 .f32 :=
  cellNew (m ((c.tc : Thread nD τ).loc main_arg0)) (m ((c.tc : Thread nD τ).loc main_arg1)) (m ((c.tc : Thread nD τ).loc main_arg2)) (tw m c) (tu m c) (bsum m c)

theorem flushedH_eq (c : Dev nD) (t : Fin cfg0.N) :
    (dats m 0 c).flushed 5 t = ((cfg0.win 5).blk t).view.read (Elt Ideal) (hidArr m c) := by
  show (cfg0.win 5).cut (grid0.coords t) ((dats m 0 c).after 5 t) = _
  rw [after5]
  unfold outH
  rw [View.canon_unit_zero hz]
  simp only [View.ld_unit_zero (S := S256x1024) hz, View.ld_unit_zero (S := S2048x4096) hz, View.ld_unit_zero (S := S1x4096) hz]
  refine funext fun (y : S256x1024.Idx) => ?_
  obtain ⟨p, h, rfl⟩ : ∃ (p : Fin 256) (h : Fin 1024), y = ix2 p h := ⟨y 0, y 1, eq_ix2 y⟩
  have he : ((cfg0.win 5).blk t).view.emb (ix2 p h) = ix2 (rowOf t p) h := by
    obtain ⟨-, -, -, -, -, -, -, -, -, -, e10, e11, e12, e13⟩ := idx_facts t
    refine funext fun a => Fin.ext ?_
    match a with
    | ⟨0, _⟩ => show win0_5.index t (0 : Fin 2) * 256 + 1 * p.val = 256 * t.val + p.val; omega
    | ⟨1, _⟩ => show win0_5.index t (1 : Fin 2) * 1024 + 1 * h.val = h.val; omega
  show k0_pay3 (F := Ideal) (iblk m c 0 t) (iblk m c 1 t) (iblk m c 3 t) (iblk m c 4 t) (iblk m c 2 t) (ix2 p h) = hidArr m c (((cfg0.win 5).blk t).view.emb (ix2 p h))
  rw [he]
  exact hid_block (m ((c.tc : Thread nD τ).loc main_arg0)) (m ((c.tc : Thread nD τ).loc main_arg1)) (m ((c.tc : Thread nD τ).loc main_arg2)) (tw m c) (tu m c) (bsum m c) (iblk m c 0 t) (iblk m c 1 t) (iblk m c 3 t) (iblk m c 4 t) (iblk m c 2 t)
    (rowOf t p) p (blkX m c t p) (blkA m c t p) (fun k j => (blkW m c t _ j).trans (stackedUpper m c k j))
    (fun k j => (blkW m c t _ j).trans (stackedLower m c k j)) (fun j => (blkB m c t j).trans (biasAt m c j)) h (blkC m c t p h)

theorem flushedC_eq (c : Dev nD) (t : Fin cfg0.N) :
    (dats m 0 c).flushed 6 t = ((cfg0.win 6).blk t).view.read (Elt Ideal) (cellArr m c) := by
  show (cfg0.win 6).cut (grid0.coords t) ((dats m 0 c).after 6 t) = _
  rw [after6]
  unfold outC
  rw [View.canon_unit_zero hz]
  simp only [View.ld_unit_zero (S := S256x1024) hz, View.ld_unit_zero (S := S2048x4096) hz, View.ld_unit_zero (S := S1x4096) hz]
  refine funext fun (y : S256x1024.Idx) => ?_
  obtain ⟨p, h, rfl⟩ : ∃ (p : Fin 256) (h : Fin 1024), y = ix2 p h := ⟨y 0, y 1, eq_ix2 y⟩
  have he : ((cfg0.win 6).blk t).view.emb (ix2 p h) = ix2 (rowOf t p) h := by
    obtain ⟨-, -, -, -, -, -, -, -, -, -, e10, e11, e12, e13⟩ := idx_facts t
    refine funext fun a => Fin.ext ?_
    match a with
    | ⟨0, _⟩ => show win0_6.index t (0 : Fin 2) * 256 + 1 * p.val = 256 * t.val + p.val; omega
    | ⟨1, _⟩ => show win0_6.index t (1 : Fin 2) * 1024 + 1 * h.val = h.val; omega
  show k0_pay2 (F := Ideal) (iblk m c 0 t) (iblk m c 1 t) (iblk m c 3 t) (iblk m c 4 t) (iblk m c 2 t) (ix2 p h) = cellArr m c (((cfg0.win 6).blk t).view.emb (ix2 p h))
  rw [he]
  exact cell_block (m ((c.tc : Thread nD τ).loc main_arg0)) (m ((c.tc : Thread nD τ).loc main_arg1)) (m ((c.tc : Thread nD τ).loc main_arg2)) (tw m c) (tu m c) (bsum m c) (iblk m c 0 t) (iblk m c 1 t) (iblk m c 3 t) (iblk m c 4 t) (iblk m c 2 t)
    (rowOf t p) p (blkX m c t p) (blkA m c t p) (fun k j => (blkW m c t _ j).trans (stackedUpper m c k j))
    (fun k j => (blkW m c t _ j).trans (stackedLower m c k j)) (fun j => (blkB m c t j).trans (biasAt m c j)) h (blkC m c t p h)

/-! ## The 32 blocks tile the rows -/

theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v11_0).slice (win0_5.rect t)).set ↔ _
  rw [View.set_slice_whole, Rect.mem_set_unit]
  exact Iff.rfl

/-- Row `r` lies in the block of grid point `r / 256`. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, -, e10, e11, e12, e13⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v11_1).slice (win0_6.rect t)).set ↔ _
  rw [View.set_slice_whole, Rect.mem_set_unit]
  exact Iff.rfl

/-- Row `r` lies in the block of grid point `r / 256`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 32 := N_0
  obtain ⟨t, ht⟩ : ∃ t : Fin cfg0.N, t.val = (i 0).val / 256 := ⟨⟨(i 0).val / 256, by omega⟩, rfl⟩
  obtain ⟨-, -, -, -, -, -, -, -, -, -, e10, e11, e12, e13⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The result arrays and the run -/

theorem finalH (c : Dev nD) : (dats m 0 c).arrAt 5 cfg0.N = hidArr m c :=
  (dats m 0 c).arrAt_eq_of_cover 5 (hidArr m c) (fun t _ => flushedH_eq m c t) cover5

theorem finalC (c : Dev nD) : (dats m 0 c).arrAt 6 cfg0.N = cellArr m c :=
  (dats m 0 c).arrAt_eq_of_cover 6 (cellArr m c) (fun t _ => flushedC_eq m c t) cover6

/-- The fused program runs, ends with its two results at the cell's arrays, and leaves its arguments unchanged. -/
theorem run : θ_run defs (onTc (τ := τ) (main (F := Ideal))) ⟨m, fun _ => 0, ρ⟩ (fun r => ∀ c : Dev nD,
      r.2.mem ((c.tc : Thread nD τ).loc main_v11_0) = hidArr m c
      ∧ r.2.mem ((c.tc : Thread nD τ).loc main_v11_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (finalH m c), (h c).2.1.trans (finalC m c), (h c).2.2⟩) (run_all m ρ)

end Cert.KernelIdeal.KValue

end
-- ==== Proof.RefValue.lean ====
/-
  The reference program's two results are the cell's two arrays (`Cert.LstmCell`): its new cell state and new hidden
  state, read at an index, are the specification's formulas of the row arrays, of the transposed stacked weight
  matrices and of the summed bias. The reference spells σ as 1 / (1 + e^(-x)) with the constant 1.0, which is the
  extended reals' logistic function; its two matrix products are the two sums over 1024 terms.
-/
import proofs.«136209_j38491496907449_2_alg».proof.Proof.Gen.ReferenceIdeal.Read
import proofs.«136209_j38491496907449_2_alg».proof.Proof.Spec

noncomputable section

namespace Cert.ReferenceIdeal.RefValue

open Cert.ReferenceIdeal Cert.ReferenceIdeal.Read Cert.LstmCell
open Idealize.ShloMosaic Idealize.ShloMosaic.ValueIdx

/-- The float pattern of 1.0 denotes the number one. -/
theorem ofBits_one : Ideal.ofBits .f32 0x3F800000#32 = 1 := by
  simp [Ideal.ofBits, Ideal.ieee, -EReal.coe_mul]; norm_num

/-! ## The generated index maps at explicit coordinates -/

theorem lidx5 (r : Fin 8192) (j : Fin 4096) (k : Fin 1024) : lidx_main_v5 (ix2 r j) k = ix2 r k :=
  funext fun a => Fin.ext (by match a with | ⟨0, _⟩ => rfl | ⟨1, _⟩ => rfl)
theorem ridx5 (r : Fin 8192) (j : Fin 4096) (k : Fin 1024) : ridx_main_v5 (ix2 r j) k = ix2 k j :=
  funext fun a => Fin.ext (by match a with | ⟨0, _⟩ => rfl | ⟨1, _⟩ => rfl)
theorem lidx7 (r : Fin 8192) (j : Fin 4096) (k : Fin 1024) : lidx_main_v7 (ix2 r j) k = ix2 r k :=
  funext fun a => Fin.ext (by match a with | ⟨0, _⟩ => rfl | ⟨1, _⟩ => rfl)
theorem ridx7 (r : Fin 8192) (j : Fin 4096) (k : Fin 1024) : ridx_main_v7 (ix2 r j) k = ix2 k j :=
  funext fun a => Fin.ext (by match a with | ⟨0, _⟩ => rfl | ⟨1, _⟩ => rfl)
theorem idx13 (r : Fin 8192) (h : Fin 1024) : idx_main_v13 (ix2 r h) = ix2 r (col 0 (by decide) h) :=
  funext fun a => Fin.ext (by match a with | ⟨0, _⟩ => rfl | ⟨1, _⟩ => (show h.val = 0 + h.val; omega))
theorem idx20 (r : Fin 8192) (h : Fin 1024) : idx_main_v20 (ix2 r h) = ix2 r (col 1024 (by decide) h) :=
  funext fun a => Fin.ext (by match a with | ⟨0, _⟩ => rfl | ⟨1, _⟩ => rfl)
theorem idx27 (r : Fin 8192) (h : Fin 1024) : idx_main_v27 (ix2 r h) = ix2 r (col 2048 (by decide) h) :=
  funext fun a => Fin.ext (by match a with | ⟨0, _⟩ => rfl | ⟨1, _⟩ => rfl)
theorem idx34 (r : Fin 8192) (h : Fin 1024) : idx_main_v34 (ix2 r h) = ix2 r (col 3072 (by decide) h) :=
  funext fun a => Fin.ext (by match a with | ⟨0, _⟩ => rfl | ⟨1, _⟩ => rfl)
theorem idx10_11 (r : Fin 8192) (j : Fin 4096) : idx_main_v10 (idx_main_v11 (ix2 r j)) = ix1 j :=
  funext fun a => Fin.ext (by match a with | ⟨0, _⟩ => rfl)

/-! ## The pre-activation -/

/-- The reference's pre-activation array at row `r`, gate column `j`. -/
theorem pre_eq (x0 x1 : (⟨S8192x1024, .f32⟩ : BufTy).Contents (Elt Ideal)) (x3 x5 x7 x9 x11 x13 x15 x17 : (⟨S1024x1024, .f32⟩ : BufTy).Contents (Elt Ideal)) (x4 x6 x8 x10 x12 x14 x16 x18 : (⟨S1024, .f32⟩ : BufTy).Contents (Elt Ideal)) (r : Fin 8192) (j : Fin 4096) :
    val_main_v12 (F := Ideal) x0 x1 x3 x4 x5 x6 x7 x8 x9 x10 x11 x12 x13 x14 x15 x16 x17 x18 (ix2 r j) = pre x0 x1 (val_main_v4 (F := Ideal) x3 x7 x11 x15) (val_main_v6 (F := Ideal) x5 x9 x13 x17) (val_main_v9 (F := Ideal) x4 x6 x8 x10 x12 x14 x16 x18) r j := by
  simp only [val_main_v12_apply, val_main_v8_apply, val_main_v5_apply, val_main_v7_apply, val_main_v11_apply, val_main_v10_apply,
    lidx5, ridx5, lidx7, ridx7, idx10_11, Ideal.addf_def]
  rfl

/-! ## The two results -/

theorem cell_eq (x0 x1 x2 : (⟨S8192x1024, .f32⟩ : BufTy).Contents (Elt Ideal)) (x3 x5 x7 x9 x11 x13 x15 x17 : (⟨S1024x1024, .f32⟩ : BufTy).Contents (Elt Ideal)) (x4 x6 x8 x10 x12 x14 x16 x18 : (⟨S1024, .f32⟩ : BufTy).Contents (Elt Ideal)) :
    val_main_v38 (F := Ideal) x0 x1 x2 x3 x4 x5 x6 x7 x8 x9 x10 x11 x12 x13 x14 x15 x16 x17 x18 = cellNew x0 x1 x2 (val_main_v4 (F := Ideal) x3 x7 x11 x15) (val_main_v6 (F := Ideal) x5 x9 x13 x17) (val_main_v9 (F := Ideal) x4 x6 x8 x10 x12 x14 x16 x18) := by
  funext i
  obtain ⟨r, h, rfl⟩ : ∃ (r : Fin 8192) (h : Fin 1024), i = ix2 r h := ⟨i 0, i 1, eq_ix2 i⟩
  simp only [val_main_v38_apply, val_main_v36_apply, val_main_v37_apply, val_main_v19_apply, val_main_v18_apply, val_main_cst_0_apply,
    val_main_v17_apply, val_main_v16_apply, val_main_cst_apply, val_main_v15_apply, val_main_v14_apply, val_main_v13_apply,
    val_main_v26_apply, val_main_v25_apply, val_main_cst_2_apply, val_main_v24_apply, val_main_v23_apply, val_main_cst_1_apply,
    val_main_v22_apply, val_main_v21_apply, val_main_v20_apply, val_main_v35_apply, val_main_v34_apply,
    idx13, idx20, idx34, pre_eq, Ideal.addf_def, Ideal.mulf_def, Ideal.hostDivf_def, Ideal.hostUnary_exp_def, Ideal.hostUnary_tanh_def,
    Ideal.hostNegf_def, Ideal.negf_def, Ideal.ofBits_def, ofBits_one]
  rfl

theorem hid_eq (x0 x1 x2 : (⟨S8192x1024, .f32⟩ : BufTy).Contents (Elt Ideal)) (x3 x5 x7 x9 x11 x13 x15 x17 : (⟨S1024x1024, .f32⟩ : BufTy).Contents (Elt Ideal)) (x4 x6 x8 x10 x12 x14 x16 x18 : (⟨S1024, .f32⟩ : BufTy).Contents (Elt Ideal)) :
    val_main_v40 (F := Ideal) x0 x1 x2 x3 x4 x5 x6 x7 x8 x9 x10 x11 x12 x13 x14 x15 x16 x17 x18 = hidNew x0 x1 x2 (val_main_v4 (F := Ideal) x3 x7 x11 x15) (val_main_v6 (F := Ideal) x5 x9 x13 x17) (val_main_v9 (F := Ideal) x4 x6 x8 x10 x12 x14 x16 x18) := by
  funext i
  obtain ⟨r, h, rfl⟩ : ∃ (r : Fin 8192) (h : Fin 1024), i = ix2 r h := ⟨i 0, i 1, eq_ix2 i⟩
  simp only [val_main_v40_apply, val_main_v33_apply, val_main_v32_apply, val_main_cst_4_apply, val_main_v31_apply, val_main_v30_apply,
    val_main_cst_3_apply, val_main_v29_apply, val_main_v28_apply, val_main_v27_apply, val_main_v39_apply, cell_eq,
    idx27, pre_eq, Ideal.addf_def, Ideal.mulf_def, Ideal.hostDivf_def, Ideal.hostUnary_exp_def, Ideal.hostUnary_tanh_def,
    Ideal.hostNegf_def, Ideal.negf_def, Ideal.ofBits_def, ofBits_one]
  rfl

end Cert.ReferenceIdeal.RefValue

end
-- ==== Proof.lean ====
/-
  The fused LSTM cell against its reference, over the extended reals.

  The fused program stacks the eight weight matrices and biases on the host, then runs one pipelined region over 32
  row blocks whose body does one matrix product of the input and hidden-state rows laid side by side against the
  stacked weights, adds the bias, and applies the gates. The reference does two matrix products and adds them. Both
  end with the new hidden state and the new cell state of `Cert.LstmCell`: the single sum over 2048 terms is the sum of
  its two halves, rounding to the narrow format is the identity on the extended reals, and the logistic function is
  1 / (1 + e^(-x)) on both sides. The program read over the extended reals is the word-level program's own text, no
  operation replaced, so `preserves` asks nothing. Each program runs to the end without fault and leaves its arguments
  unchanged.
-/
import proofs.«136209_j38491496907449_2_alg».proof.Defs
import proofs.«136209_j38491496907449_2_alg».proof.Proof.Gen.Kernel
import proofs.«136209_j38491496907449_2_alg».proof.Proof.Gen.KernelIdeal
import proofs.«136209_j38491496907449_2_alg».proof.Proof.Gen.ReferenceIdeal
import proofs.«136209_j38491496907449_2_alg».proof.Proof.Gen.ReferenceIdeal.Run
import proofs.«136209_j38491496907449_2_alg».proof.Proof.Gen.ReferenceIdeal.Read
import proofs.«136209_j38491496907449_2_alg».proof.Proof.Gen.Pre_finite_inputs
import proofs.«136209_j38491496907449_2_alg».proof.Proof.FrameBits
import proofs.«136209_j38491496907449_2_alg».proof.Proof.FrameIdeal
import proofs.«136209_j38491496907449_2_alg».proof.Proof.KernelValue
import proofs.«136209_j38491496907449_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the cell's two arrays of the (agreeing) arguments. -/
theorem algebraic : Cert.algebraic_KernelIdeal_ReferenceIdeal := by
  intro m ρ m' ρ' _ hagree
  refine ⟨fun c => Cert.KernelIdeal.KValue.hidArr m c, fun c => Cert.KernelIdeal.KValue.cellArr m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.hid_eq, h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v38_eq, Cert.ReferenceIdeal.RefValue.cell_eq, h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
